-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S1600000 : Shape := ⟨1, ![1600000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64x64 .f32) (main_arg6 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S100000x64 .f32) (main_arg1 : IVec S2x1600000 32) (main_arg2 : FVec F S1600000 .f32) (main_arg3 : FVec F S64x64 .f32) (main_arg4 : FVec F S64 .f32) (main_arg5 : FVec F S64x64 .f32) (main_arg6 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_v13 main_v16
-- ==== Kernel.lean ====
abbrev S100000x64 : Shape := ⟨2, ![100000, 64]⟩
abbrev S2x1600000 : Shape := ⟨2, ![2, 1600000]⟩
abbrev S1600000 : Shape := ⟨1, ![1600000]⟩
abbrev S64x64 : Shape := ⟨2, ![64, 64]⟩
abbrev S64 : Shape := ⟨1, ![64]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S10000x64 : Shape := ⟨2, ![10000, 64]⟩
abbrev S1700000x64 : Shape := ⟨2, ![1700000, 64]⟩
abbrev S1x64 : Shape := ⟨2, ![1, 64]⟩

abbrev nBuf : Space → Nat
  | .hbm => 91
  | .vmem => 16
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S100000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S_, .f32⟩
  | .hbm, ⟨15, _⟩ => ⟨S100000, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S1700000, .f32⟩
  | .hbm, ⟨42, _⟩ => ⟨S_, .i32⟩
  | .hbm, ⟨43, _⟩ => ⟨S1700000, .i32⟩
  | .hbm, ⟨44, _⟩ => ⟨S1700000, .i1⟩
  | .hbm, ⟨45, _⟩ => ⟨S_, .i32⟩
  | .hbm, ⟨46, _⟩ => ⟨S1700000, .i32⟩
  | .hbm, ⟨47, _⟩ => ⟨S1700000, .i32⟩
  | .hbm, ⟨48, _⟩ => ⟨S1700000, .i32⟩
  | .hbm, ⟨49, _⟩ => ⟨S1700000x1, .i32⟩
  | .hbm, ⟨50, _⟩ => ⟨S1700000, .f32⟩
  | .hbm, ⟨51, _⟩ => ⟨S1700000, .f32⟩
  | .hbm, ⟨52, _⟩ => ⟨S100000x64, .bf16⟩
  | .hbm, ⟨53, _⟩ => ⟨S1700000x1, .f32⟩
  | .hbm, ⟨54, _⟩ => ⟨S_, .i32⟩
  | .hbm, ⟨55, _⟩ => ⟨S1700000, .i32⟩
  | .hbm, ⟨56, _⟩ => ⟨S1700000, .i1⟩
  | .hbm, ⟨57, _⟩ => ⟨S_, .i32⟩
  | .hbm, ⟨58, _⟩ => ⟨S1700000, .i32⟩
  | .hbm, ⟨59, _⟩ => ⟨S1700000, .i32⟩
  | .hbm, ⟨60, _⟩ => ⟨S1700000, .i32⟩
  | .hbm, ⟨61, _⟩ => ⟨S1700000x1, .i32⟩
  | .hbm, ⟨62, _⟩ => ⟨S1700000x64, .bf16⟩
  | .hbm, ⟨63, _⟩ => ⟨S1700000x64, .f32⟩
  | .hbm, ⟨64, _⟩ => ⟨S1700000x64, .f32⟩
  | .hbm, ⟨65, _⟩ => ⟨S1700000x64, .f32⟩
  | .hbm, ⟨66, _⟩ => ⟨S_, .f32⟩
  | .hbm, ⟨67, _⟩ => ⟨S100000x64, .f32⟩
  | .hbm, ⟨68, _⟩ => ⟨S1700000x1, .i32⟩
  | .hbm, ⟨69, _⟩ => ⟨S100000x64, .f32⟩
  | .hbm, ⟨70, _⟩ => ⟨S1x64, .f32⟩
  | .hbm, ⟨71, _⟩ => ⟨S100000x64, .bf16⟩
  | .hbm, ⟨72, _⟩ => ⟨S1700000x1, .f32⟩
  | .hbm, ⟨73, _⟩ => ⟨S_, .i32⟩
  | .hbm, ⟨74, _⟩ => ⟨S1700000, .i32⟩
  | .hbm, ⟨75, _⟩ => ⟨S1700000, .i1⟩
  | .hbm, ⟨76, _⟩ => ⟨S_, .i32⟩
  | .hbm, ⟨77, _⟩ => ⟨S1700000, .i32⟩
  | .hbm, ⟨78, _⟩ => ⟨S1700000, .i32⟩
  | .hbm, ⟨79, _⟩ => ⟨S1700000, .i32⟩
  | .hbm, ⟨80, _⟩ => ⟨S1700000x1, .i32⟩
  | .hbm, ⟨81, _⟩ => ⟨S1700000x64, .bf16⟩
  | .hbm, ⟨82, _⟩ => ⟨S1700000x64, .f32⟩
  | .hbm, ⟨83, _⟩ => ⟨S1700000x64, .f32⟩
  | .hbm, ⟨84, _⟩ => ⟨S1700000x64, .f32⟩
  | .hbm, ⟨85, _⟩ => ⟨S_, .f32⟩
  | .hbm, ⟨86, _⟩ => ⟨S100000x64, .f32⟩
  | .hbm, ⟨87, _⟩ => ⟨S1700000x1, .i32⟩
  | .hbm, ⟨88, _⟩ => ⟨S100000x64, .f32⟩
  | .hbm, ⟨89, _⟩ => ⟨S1x64, .f32⟩
  | .hbm, ⟨90, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x64, .bf16⟩
  | .local _ .vmem, ⟨4, _⟩ => ⟨S10000x64, .bf16⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S64x64, .f32⟩
  | .local _ .vmem, ⟨9, _⟩ => ⟨S10000x64, .bf16⟩
  | .local _ .vmem, ⟨10, _⟩ => ⟨S10000x64, .bf16⟩
  | .local _ .vmem, ⟨11, _⟩ => ⟨S10000x64, .f32⟩
  | .local _ .vmem, ⟨12, _⟩ => ⟨S10000x64, .f32⟩
  | .local _ .vmem, ⟨13, _⟩ => ⟨S1x64, .f32⟩
  | .local _ .vmem, ⟨14, _⟩ => ⟨S10000x64, .f32⟩
  | .local _ .vmem, ⟨15, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v17 : Ref sig .tc := ⟨.hbm, 31, rfl⟩
abbrev main_c : Ref sig .tc := ⟨.hbm, 32, rfl⟩
abbrev main_v18 : Ref sig .tc := ⟨.hbm, 33, rfl⟩
abbrev main_v19 : Ref sig .tc := ⟨.hbm, 34, rfl⟩
abbrev main_c_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_c_6 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_c_7 : Ref sig .tc := ⟨.hbm, 54, rfl⟩
abbrev main_v36 : Ref sig .tc := ⟨.hbm, 55, rfl⟩
abbrev main_v37 : Ref sig .tc := ⟨.hbm, 56, rfl⟩
abbrev main_c_8 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_9 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_c_10 : Ref sig .tc := ⟨.hbm, 73, rfl⟩
abbrev main_v52 : Ref sig .tc := ⟨.hbm, 74, rfl⟩
abbrev main_v53 : Ref sig .tc := ⟨.hbm, 75, rfl⟩
abbrev main_c_11 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_12 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  packedbf16_S10000x64_S10000x64_0_0 : (Rect.unit (s := S10000x64) ![0, 0] S10000x64.size inb_S10000x64_S10000x64_0_0).PackedRows (EltTy.packing .bf16)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x64_S64x64_S10000x64_1_0_0_1_n_n_wf : DotDims.WF S10000x64 S64x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .bf16 = 32 ∨ (Rect.block (s := S100000x64) S10000x64.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .bf16 = 32 ∨ (Rect.block (s := S100000x64) S10000x64.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v49) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v50) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v64) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v65) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v66) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S1600000 : Shape := ⟨1, ![1600000]⟩
abbrev S64x64 : Shape := ⟨2, ![64, 64]⟩
abbrev S64 : Shape := ⟨1, ![64]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩

abbrev nBuf : Space → Nat
  | .hbm => 98
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S100000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S_, .f32⟩
  | .hbm, ⟨15, _⟩ => ⟨S100000, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S1700000, .f32⟩
  | .hbm, ⟨42, _⟩ => ⟨S_, .i32⟩
  | .hbm, ⟨43, _⟩ => ⟨S1700000, .i32⟩
  | .hbm, ⟨44, _⟩ => ⟨S1700000, .i1⟩
  | .hbm, ⟨45, _⟩ => ⟨S_, .i32⟩
  | .hbm, ⟨46, _⟩ => ⟨S1700000, .i32⟩
  | .hbm, ⟨47, _⟩ => ⟨S1700000, .i32⟩
  | .hbm, ⟨48, _⟩ => ⟨S1700000, .i32⟩
  | .hbm, ⟨49, _⟩ => ⟨S1700000x1, .i32⟩
  | .hbm, ⟨50, _⟩ => ⟨S1700000, .f32⟩
  | .hbm, ⟨51, _⟩ => ⟨S1700000, .f32⟩
  | .hbm, ⟨52, _⟩ => ⟨S100000x64, .f32⟩
  | .hbm, ⟨53, _⟩ => ⟨S1700000x1, .f32⟩
  | .hbm, ⟨54, _⟩ => ⟨S_, .i32⟩
  | .hbm, ⟨55, _⟩ => ⟨S1700000, .i32⟩
  | .hbm, ⟨56, _⟩ => ⟨S1700000, .i1⟩
  | .hbm, ⟨57, _⟩ => ⟨S_, .i32⟩
  | .hbm, ⟨58, _⟩ => ⟨S1700000, .i32⟩
  | .hbm, ⟨59, _⟩ => ⟨S1700000, .i32⟩
  | .hbm, ⟨60, _⟩ => ⟨S1700000, .i32⟩
  | .hbm, ⟨61, _⟩ => ⟨S1700000x1, .i32⟩
  | .hbm, ⟨62, _⟩ => ⟨S1700000x64, .f32⟩
  | .hbm, ⟨63, _⟩ => ⟨S1700000x64, .f32⟩
  | .hbm, ⟨64, _⟩ => ⟨S1700000x64, .f32⟩
  | .hbm, ⟨65, _⟩ => ⟨S_, .f32⟩
  | .hbm, ⟨66, _⟩ => ⟨S100000x64, .f32⟩
  | .hbm, ⟨67, _⟩ => ⟨S1700000x1, .i32⟩
  | .hbm, ⟨68, _⟩ => ⟨S100000x64, .f32⟩
  | .hbm, ⟨69, _⟩ => ⟨S1x64, .f32⟩
  | .hbm, ⟨70, _⟩ => ⟨S100000x64, .f32⟩
  | .hbm, ⟨71, _⟩ => ⟨S100000x64, .f32⟩
  | .hbm, ⟨72, _⟩ => ⟨S_, .f32⟩
  | .hbm, ⟨73, _⟩ => ⟨S100000x64, .f32⟩
  | .hbm, ⟨74, _⟩ => ⟨S100000x64, .f32⟩
  | .hbm, ⟨75, _⟩ => ⟨S100000x64, .f32⟩
  | .hbm, ⟨76, _⟩ => ⟨S1700000x1, .f32⟩
  | .hbm, ⟨77, _⟩ => ⟨S_, .i32⟩
  | .hbm, ⟨78, _⟩ => ⟨S1700000, .i32⟩
  | .hbm, ⟨79, _⟩ => ⟨S1700000, .i1⟩
  | .hbm, ⟨80, _⟩ => ⟨S_, .i32⟩
  | .hbm, ⟨81, _⟩ => ⟨S1700000, .i32⟩
  | .hbm, ⟨82, _⟩ => ⟨S1700000, .i32⟩
  | .hbm, ⟨83, _⟩ => ⟨S1700000, .i32⟩
  | .hbm, ⟨84, _⟩ => ⟨S1700000x1, .i32⟩
  | .hbm, ⟨85, _⟩ => ⟨S1700000x64, .f32⟩
  | .hbm, ⟨86, _⟩ => ⟨S1700000x64, .f32⟩
  | .hbm, ⟨87, _⟩ => ⟨S1700000x64, .f32⟩
  | .hbm, ⟨88, _⟩ => ⟨S_, .f32⟩
  | .hbm, ⟨89, _⟩ => ⟨S100000x64, .f32⟩
  | .hbm, ⟨90, _⟩ => ⟨S1700000x1, .i32⟩
  | .hbm, ⟨91, _⟩ => ⟨S100000x64, .f32⟩
  | .hbm, ⟨92, _⟩ => ⟨S1x64, .f32⟩
  | .hbm, ⟨93, _⟩ => ⟨S100000x64, .f32⟩
  | .hbm, ⟨94, _⟩ => ⟨S100000x64, .f32⟩
  | .hbm, ⟨95, _⟩ => ⟨S_, .f32⟩
  | .hbm, ⟨96, _⟩ => ⟨S100000x64, .f32⟩
  | .hbm, ⟨97, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v17 : Ref sig .tc := ⟨.hbm, 31, rfl⟩
abbrev main_c : Ref sig .tc := ⟨.hbm, 32, rfl⟩
abbrev main_v18 : Ref sig .tc := ⟨.hbm, 33, rfl⟩
abbrev main_v19 : Ref sig .tc := ⟨.hbm, 34, rfl⟩
abbrev main_c_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_c_6 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_c_7 : Ref sig .tc := ⟨.hbm, 54, rfl⟩
abbrev main_v36 : Ref sig .tc := ⟨.hbm, 55, rfl⟩
abbrev main_v37 : Ref sig .tc := ⟨.hbm, 56, rfl⟩
abbrev main_c_8 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_9 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_call1_cst : Ref sig .tc := ⟨.hbm, 72, rfl⟩
abbrev main_call1_v0 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_c_10 : Ref sig .tc := ⟨.hbm, 77, rfl⟩
abbrev main_v54 : Ref sig .tc := ⟨.hbm, 78, rfl⟩
abbrev main_v55 : Ref sig .tc := ⟨.hbm, 79, rfl⟩
abbrev main_c_11 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_12 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_call2_cst : Ref sig .tc := ⟨.hbm, 95, rfl⟩
abbrev main_call2_v0 : Ref sig .tc := ⟨.hbm, 96, rfl⟩
abbrev main_v69 : Ref sig .tc := ⟨.hbm, 97, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x64_S64x64_S100000x64_1_0_0_1_n_n_wf : DotDims.WF S100000x64 S64x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.RunValue.lean ====
/-
  The idealized kernel program's run, with its result named.

  The program is eight segments: three stretches of host operations, the first kernel's region, a stretch, the second
  kernel's region, a stretch, the third kernel's region. Every weakly fair execution from any memory terminates without
  a fault; the state it ends in holds, at every unscoped buffer, the contents the last segment boundary names. Read at
  the result buffer this is the third region's output array after its last write-back; read at an argument buffer it
  is the launch contents, since no segment writes an argument.
-/
import proofs.«179067_j90512140796730_2_alg».proof.Proof.Gen.KernelIdeal.Frame

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the contents
    the last boundary names for it and every argument buffer as launched. -/
theorem run_result : θ_run defs (onTc (τ := τ) (main (F := F))) ⟨m, fun _ => 0, ρ⟩ (fun r => ∀ c : Dev nD,
      r.2.mem ((c.tc : Thread nD τ).loc main_v66) = W8 m ρ c (Proc.devRef .tc main_v66)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v66 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c)⟩)

end Cert.KernelIdeal.RunValue

end
-- ==== Proof.Spec.lean ====
/-
  Two layers of normalized neighbourhood averaging on a graph of 100000 nodes and 1600000 weighted edges, as one
  function of the seven argument arrays, spelt with the host operations themselves.

  Every node gets a self-loop of weight one: the 1700000 sources (row) and targets (col) are the two rows of the
  edge list followed by 0 … 99999, and the weights (w) the edge weights followed by ones. The degree of a node is
  the sum of the weights of the edges that end in it; its inverse square root, where the degree is positive (zero
  elsewhere), scales each edge from both ends: norm = dinv[row] · w · dinv[col], a negative index read from the end
  of the array. One layer sends along every edge the source node's row of (h · W), scaled by the edge's norm, sums
  what arrives at each target, adds the bias and clamps at zero. The result is the second layer of the first.
-/
import proofs.«179067_j90512140796730_2_alg».proof.Proof.Gen.ReferenceIdeal
import Idealize.ShloMosaic.PureOps.Ideal

noncomputable section

namespace Cert.Spec

open Cert.ReferenceIdeal Cert.ReferenceIdeal.Gen Idealize.ShloMosaic

/-- The targets of the 1700000 edges: row 1 of the edge list, then every node once. -/
def colT (a1 : IVec S2x1600000 32) : IVec S1700000 32 :=
  concatenate S1700000 0 [⟨S1600000, (shapeCast _ (extractStridedSlice S1x1600000 ![1, 0] a1 slices_S2x1600000_S1x1600000_1_0) shapeCasts_S1x1600000_S1600000)⟩, ⟨S100000, (iotaInDim S100000 32 0)⟩] concatenates_S1600000_S100000_S1700000_d0

/-- The sources of the 1700000 edges: row 0 of the edge list, then every node once. -/
def rowT (a1 : IVec S2x1600000 32) : IVec S1700000 32 :=
  concatenate S1700000 0 [⟨S1600000, (shapeCast _ (extractStridedSlice S1x1600000 ![0, 0] a1 slices_S2x1600000_S1x1600000_0_0) shapeCasts_S1x1600000_S1600000)⟩, ⟨S100000, (iotaInDim S100000 32 0)⟩] concatenates_S1600000_S100000_S1700000_d0

/-- The weights of the 1700000 edges: the given ones, then a one per self-loop. -/
def wT (a2 : FVec Ideal S1600000 .f32) : FVec Ideal S1700000 .f32 :=
  concatenate S1700000 0 [⟨S1600000, a2⟩, ⟨S100000, (broadcastInDim S100000 ![] bcast_S_S100000 (constant (F := Ideal) S_ .f32 0x3F800000#32))⟩] concatenates_S1600000_S100000_S1700000_d0

/-- A node's degree: the weights of the edges that end in it, summed. -/
def degT (a1 : IVec S2x1600000 32) (a2 : FVec Ideal S1600000 .f32) : FVec Ideal S100000 .f32 :=
  Host.scatterAdd scatter_S100000_S1700000x1_S1700000_n_0_0_1 (broadcastInDim S100000 ![] bcast_S_S100000 (constant (F := Ideal) S_ .f32 0x00000000#32)) (broadcastInDim S1700000x1 ![0] bcast_S1700000_S1700000x1_0 (colT a1)) (wT a2)

/-- The inverse square root of a positive degree, zero elsewhere. -/
def dinvT (a1 : IVec S2x1600000 32) (a2 : FVec Ideal S1600000 .f32) : FVec Ideal S100000 .f32 :=
  select (cmpf .ogt (degT a1 a2) (broadcastInDim S100000 ![] bcast_S_S100000 (constant (F := Ideal) S_ .f32 0x00000000#32))) (Host.rsqrt (maximumf (degT a1 a2) (broadcastInDim S100000 ![] bcast_S_S100000 (constant (F := Ideal) S_ .f32 0x2B8CBCCC#32)))) (broadcastInDim S100000 ![] bcast_S_S100000 (id (constant (F := Ideal) S_ .f32 0x00000000#32)))

/-- A negative node index counts from the end. -/
def wrapT (x : IVec S1700000 32) : IVec S1700000 32 :=
  select (cmpi .slt x (broadcastInDim S1700000 ![] bcast_S_S1700000 (constantI S_ 32 0#32))) (addi x (broadcastInDim S1700000 ![] bcast_S_S1700000 (constantI S_ 32 100000#32))) x

/-- The symmetric normalization of every edge. -/
def normT (a1 : IVec S2x1600000 32) (a2 : FVec Ideal S1600000 .f32) : FVec Ideal S1700000 .f32 :=
  mulf (mulf (Host.gather gather_S100000_S1700000x1_S1700000_n_0_n_n_0_1_1 (dinvT a1 a2) (broadcastInDim S1700000x1 ![0] bcast_S1700000_S1700000x1_0 (wrapT (rowT a1)))) (wT a2)) (Host.gather gather_S100000_S1700000x1_S1700000_n_0_n_n_0_1_1 (dinvT a1 a2) (broadcastInDim S1700000x1 ![0] bcast_S1700000_S1700000x1_0 (wrapT (colT a1))))

/-- One round of message passing: row `row e` of `h` scaled by `norm e`, summed into row `col e`. -/
def aggT (col : IVec S1700000 32) (norm : FVec Ideal S1700000 .f32) (row : IVec S1700000 32)
    (h : FVec Ideal S100000x64 .f32) : FVec Ideal S100000x64 .f32 :=
  Host.scatterAdd scatter_S100000x64_S1700000x1_S1700000x64_1_0_0_1 (broadcastInDim S100000x64 ![] bcast_S_S100000x64 (constant (F := Ideal) S_ .f32 0x00000000#32)) (broadcastInDim S1700000x1 ![0] bcast_S1700000_S1700000x1_0 col) (mulf (broadcastInDim S1700000x64 ![0, 1] bcast_S1700000x1_S1700000x64_0_1 (broadcastInDim S1700000x1 ![0] bcast_S1700000_S1700000x1_0 norm)) (Host.gather gather_S100000x64_S1700000x1_S1700000x64_1_0_n_n_0_1_164 h (broadcastInDim S1700000x1 ![0] bcast_S1700000_S1700000x1_0 (wrapT row))))

/-- The bias, one row repeated for every node. -/
def biasT (b : FVec Ideal S64 .f32) : FVec Ideal S100000x64 .f32 :=
  broadcastInDim S100000x64 ![0, 1] bcast_S1x64_S100000x64_0_1 (broadcastInDim S1x64 ![1] bcast_S64_S1x64_1 b)

/-- The zero array a layer clamps against. -/
def zeroT : FVec Ideal S100000x64 .f32 :=
  broadcastInDim S100000x64 ![] bcast_S_S100000x64 (constant (F := Ideal) S_ .f32 0x00000000#32)

/-- The product of the node features with a 64 × 64 weight matrix. -/
def dotT (x : FVec Ideal S100000x64 .f32) (w : FVec Ideal S64x64 .f32) : FVec Ideal S100000x64 .f32 :=
  Host.dotGeneral (F := Ideal) dot_S100000x64_S64x64_S100000x64_1_0_0_1_n_n none x w

/-- One layer on already multiplied features: aggregate, add the bias, clamp at zero. -/
def layerT (col : IVec S1700000 32) (norm : FVec Ideal S1700000 .f32) (row : IVec S1700000 32)
    (h : FVec Ideal S100000x64 .f32) (b : FVec Ideal S64 .f32) : FVec Ideal S100000x64 .f32 :=
  maximumf (addf (aggT col norm row h) (biasT b)) zeroT

/-- Both layers. -/
def refT (a0 : FVec Ideal S100000x64 .f32) (a1 : IVec S2x1600000 32) (a2 : FVec Ideal S1600000 .f32)
    (a3 : FVec Ideal S64x64 .f32) (a4 : FVec Ideal S64 .f32) (a5 : FVec Ideal S64x64 .f32) (a6 : FVec Ideal S64 .f32) :
    FVec Ideal S100000x64 .f32 :=
  layerT (colT a1) (normT a1 a2) (rowT a1)
    (dotT (layerT (colT a1) (normT a1 a2) (rowT a1) (dotT a0 a3) a4) a5) a6

end Cert.Spec

end
-- ==== Proof.Chain.lean ====
/-
  The buffers of the idealized kernel program at the boundaries between its host stretches and its three regions.

  Before the first region the host computes the edge sources, targets and normalization from the edge list and
  weights alone. Between the regions it runs one round of message passing on the previous region's output and reshapes
  the next bias to a row; nothing else that a later segment reads is written. So each region's operands are the
  two-layer function's intermediate values, and the last region's output is its result.
-/
import proofs.«179067_j90512140796730_2_alg».proof.Proof.Gen.KernelIdeal.Frame
import proofs.«179067_j90512140796730_2_alg».proof.Proof.Spec
import Idealize.ShloMosaic.Lib.StableHlo.Run

noncomputable section

namespace Cert.KernelIdeal.Chain

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-! ## What no segment writes stays -/

/-- Buffer `main_arg0` enters the first region as launched: none of the three host stretches before it writes it. -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := StableHlo.after_of_forall_not_mem _ _ (List.forall_iff_forall_mem.mp (by
      simp only [hostOps0_2, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg0) := StableHlo.after_of_forall_not_mem _ _ (List.forall_iff_forall_mem.mp (by
      simp only [hostOps0_1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg0) := StableHlo.after_of_forall_not_mem _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg0) := rfl

/-- Buffer `main_arg3` enters the first region as launched: none of the three host stretches before it writes it. -/
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := StableHlo.after_of_forall_not_mem _ _ (List.forall_iff_forall_mem.mp (by
      simp only [hostOps0_2, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg3) := StableHlo.after_of_forall_not_mem _ _ (List.forall_iff_forall_mem.mp (by
      simp only [hostOps0_1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg3) := StableHlo.after_of_forall_not_mem _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg3) := rfl

/-- Buffer `main_arg4` enters the first region as launched: none of the three host stretches before it writes it. -/
theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := StableHlo.after_of_forall_not_mem _ _ (List.forall_iff_forall_mem.mp (by
      simp only [hostOps0_2, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg4) := StableHlo.after_of_forall_not_mem _ _ (List.forall_iff_forall_mem.mp (by
      simp only [hostOps0_1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg4) := StableHlo.after_of_forall_not_mem _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg4) := rfl

/-- Buffer `main_arg5` enters the first region as launched: none of the three host stretches before it writes it. -/
theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := StableHlo.after_of_forall_not_mem _ _ (List.forall_iff_forall_mem.mp (by
      simp only [hostOps0_2, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg5) := StableHlo.after_of_forall_not_mem _ _ (List.forall_iff_forall_mem.mp (by
      simp only [hostOps0_1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg5) := StableHlo.after_of_forall_not_mem _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg5) := rfl

/-- Buffer `main_arg6` enters the first region as launched: none of the three host stretches before it writes it. -/
theorem W3_main_arg6 (c : Dev nD) : W3 m ρ c (Proc.devRef .tc main_arg6) = m ((c : Thread nD τ).loc main_arg6) :=
  calc W3 m ρ c (Proc.devRef .tc main_arg6)
    _ = W2 m ρ c (Proc.devRef .tc main_arg6) := StableHlo.after_of_forall_not_mem _ _ (List.forall_iff_forall_mem.mp (by
      simp only [hostOps0_2, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg6) := StableHlo.after_of_forall_not_mem _ _ (List.forall_iff_forall_mem.mp (by
      simp only [hostOps0_1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg6) := StableHlo.after_of_forall_not_mem _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg6) := rfl

/-! The first region writes only its own output. -/
theorem W4_main_v3 (c : Dev nD) : W4 m ρ c (Proc.devRef .tc main_v3) = W3 m ρ c (Proc.devRef .tc main_v3) := W4_of_ne m ρ c main_v3 (by decide)
theorem W4_main_v6 (c : Dev nD) : W4 m ρ c (Proc.devRef .tc main_v6) = W3 m ρ c (Proc.devRef .tc main_v6) := W4_of_ne m ρ c main_v6 (by decide)
theorem W4_main_v33 (c : Dev nD) : W4 m ρ c (Proc.devRef .tc main_v33) = W3 m ρ c (Proc.devRef .tc main_v33) := W4_of_ne m ρ c main_v33 (by decide)
theorem W4_main_arg4 (c : Dev nD) : W4 m ρ c (Proc.devRef .tc main_arg4) = W3 m ρ c (Proc.devRef .tc main_arg4) := W4_of_ne m ρ c main_arg4 (by decide)
theorem W4_main_arg5 (c : Dev nD) : W4 m ρ c (Proc.devRef .tc main_arg5) = W3 m ρ c (Proc.devRef .tc main_arg5) := W4_of_ne m ρ c main_arg5 (by decide)
theorem W4_main_arg6 (c : Dev nD) : W4 m ρ c (Proc.devRef .tc main_arg6) = W3 m ρ c (Proc.devRef .tc main_arg6) := W4_of_ne m ρ c main_arg6 (by decide)

/-! The stretch after it writes only its own results. -/
theorem W5_main_v3 (c : Dev nD) : W5 m ρ c (Proc.devRef .tc main_v3) = W4 m ρ c (Proc.devRef .tc main_v3) :=
  StableHlo.after_of_forall_not_mem _ _ (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem W5_main_v6 (c : Dev nD) : W5 m ρ c (Proc.devRef .tc main_v6) = W4 m ρ c (Proc.devRef .tc main_v6) :=
  StableHlo.after_of_forall_not_mem _ _ (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem W5_main_v33 (c : Dev nD) : W5 m ρ c (Proc.devRef .tc main_v33) = W4 m ρ c (Proc.devRef .tc main_v33) :=
  StableHlo.after_of_forall_not_mem _ _ (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem W5_main_arg5 (c : Dev nD) : W5 m ρ c (Proc.devRef .tc main_arg5) = W4 m ρ c (Proc.devRef .tc main_arg5) :=
  StableHlo.after_of_forall_not_mem _ _ (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem W5_main_arg6 (c : Dev nD) : W5 m ρ c (Proc.devRef .tc main_arg6) = W4 m ρ c (Proc.devRef .tc main_arg6) :=
  StableHlo.after_of_forall_not_mem _ _ (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-! The second region writes only its own output. -/
theorem W6_main_v3 (c : Dev nD) : W6 m ρ c (Proc.devRef .tc main_v3) = W5 m ρ c (Proc.devRef .tc main_v3) := W6_of_ne m ρ c main_v3 (by decide)
theorem W6_main_v6 (c : Dev nD) : W6 m ρ c (Proc.devRef .tc main_v6) = W5 m ρ c (Proc.devRef .tc main_v6) := W6_of_ne m ρ c main_v6 (by decide)
theorem W6_main_v33 (c : Dev nD) : W6 m ρ c (Proc.devRef .tc main_v33) = W5 m ρ c (Proc.devRef .tc main_v33) := W6_of_ne m ρ c main_v33 (by decide)
theorem W6_main_arg6 (c : Dev nD) : W6 m ρ c (Proc.devRef .tc main_arg6) = W5 m ρ c (Proc.devRef .tc main_arg6) := W6_of_ne m ρ c main_arg6 (by decide)

/-! ## The host stretches' results -/

/-! ### Before the first region

The first stretch joins the edge list's rows with the self-loops, sums the degrees and takes their inverse square
roots; the second (an outlined select) zeroes the roots of the non-positive degrees; the third gathers the two ends'
factors of every edge and multiplies. Each stretch is read from the one before. -/

theorem W1_main_v6 (c : Dev nD) : W1 m ρ c (Proc.devRef .tc main_v6) = Cert.Spec.colT (m ((c : Thread nD τ).loc main_arg1)) := by
  show StableHlo.after hostOps0 (W0 m ρ c) (Proc.devRef .tc main_v6) = Cert.Spec.colT (W0 m ρ c (Proc.devRef .tc main_arg1))
  generalize W0 m ρ c = W
  after_results_simp <;> rfl

theorem W1_main_v3 (c : Dev nD) : W1 m ρ c (Proc.devRef .tc main_v3) = Cert.Spec.rowT (m ((c : Thread nD τ).loc main_arg1)) := by
  show StableHlo.after hostOps0 (W0 m ρ c) (Proc.devRef .tc main_v3) = Cert.Spec.rowT (W0 m ρ c (Proc.devRef .tc main_arg1))
  generalize W0 m ρ c = W
  after_results_simp <;> rfl

theorem W1_main_v8 (c : Dev nD) : W1 m ρ c (Proc.devRef .tc main_v8) = Cert.Spec.wT (m ((c : Thread nD τ).loc main_arg2)) := by
  show StableHlo.after hostOps0 (W0 m ρ c) (Proc.devRef .tc main_v8) = Cert.Spec.wT (W0 m ρ c (Proc.devRef .tc main_arg2))
  generalize W0 m ρ c = W
  after_results_simp <;> rfl

set_option maxHeartbeats 2000000 in
/-- Where the degree is positive. -/
theorem W1_main_v13 (c : Dev nD) : W1 m ρ c (Proc.devRef .tc main_v13)
    = cmpf .ogt (Cert.Spec.degT (m ((c : Thread nD τ).loc main_arg1)) (m ((c : Thread nD τ).loc main_arg2))) (broadcastInDim S100000 ![] bcast_S_S100000 (constant (F := Ideal) S_ .f32 0x00000000#32)) := by
  show StableHlo.after hostOps0 (W0 m ρ c) (Proc.devRef .tc main_v13)
    = cmpf .ogt (Cert.Spec.degT (W0 m ρ c (Proc.devRef .tc main_arg1)) (W0 m ρ c (Proc.devRef .tc main_arg2))) (broadcastInDim S100000 ![] bcast_S_S100000 (constant (F := Ideal) S_ .f32 0x00000000#32))
  generalize W0 m ρ c = W
  after_results_simp <;> rfl

set_option maxHeartbeats 2000000 in
/-- The inverse square root of the degree, kept away from zero. -/
theorem W1_main_v16 (c : Dev nD) : W1 m ρ c (Proc.devRef .tc main_v16)
    = Host.rsqrt (maximumf (Cert.Spec.degT (m ((c : Thread nD τ).loc main_arg1)) (m ((c : Thread nD τ).loc main_arg2))) (broadcastInDim S100000 ![] bcast_S_S100000 (constant (F := Ideal) S_ .f32 0x2B8CBCCC#32))) := by
  show StableHlo.after hostOps0 (W0 m ρ c) (Proc.devRef .tc main_v16)
    = Host.rsqrt (maximumf (Cert.Spec.degT (W0 m ρ c (Proc.devRef .tc main_arg1)) (W0 m ρ c (Proc.devRef .tc main_arg2))) (broadcastInDim S100000 ![] bcast_S_S100000 (constant (F := Ideal) S_ .f32 0x2B8CBCCC#32)))
  generalize W0 m ρ c = W
  after_results_simp <;> rfl

theorem W1_main_cst_3 (c : Dev nD) : W1 m ρ c (Proc.devRef .tc main_cst_3) = constant (F := Ideal) S_ .f32 0x00000000#32 := by
  show StableHlo.after hostOps0 (W0 m ρ c) (Proc.devRef .tc main_cst_3) = _
  generalize W0 m ρ c = W
  after_results_simp <;> rfl

/-- The outlined select: the root where the degree is positive, zero elsewhere. -/
theorem W2_main_v17 (c : Dev nD) : W2 m ρ c (Proc.devRef .tc main_v17)
    = select (W1 m ρ c (Proc.devRef .tc main_v13)) (W1 m ρ c (Proc.devRef .tc main_v16))
        (broadcastInDim S100000 ![] bcast_S_S100000 (id (W1 m ρ c (Proc.devRef .tc main_cst_3)))) := by
  show StableHlo.after hostOps0_1 (W1 m ρ c) (Proc.devRef .tc main_v17) = _
  generalize W1 m ρ c = W
  after_results_simp <;> rfl

theorem W2_keep_main_v3 (c : Dev nD) : W2 m ρ c (Proc.devRef .tc main_v3) = W1 m ρ c (Proc.devRef .tc main_v3) :=
  StableHlo.after_of_forall_not_mem _ _ (List.forall_iff_forall_mem.mp (by
      simp only [hostOps0_1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem W2_keep_main_v6 (c : Dev nD) : W2 m ρ c (Proc.devRef .tc main_v6) = W1 m ρ c (Proc.devRef .tc main_v6) :=
  StableHlo.after_of_forall_not_mem _ _ (List.forall_iff_forall_mem.mp (by
      simp only [hostOps0_1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem W2_keep_main_v8 (c : Dev nD) : W2 m ρ c (Proc.devRef .tc main_v8) = W1 m ρ c (Proc.devRef .tc main_v8) :=
  StableHlo.after_of_forall_not_mem _ _ (List.forall_iff_forall_mem.mp (by
      simp only [hostOps0_1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

set_option maxHeartbeats 2000000 in
/-- Every edge's normalization from the nodes' factors, the sources, the targets and the weights. -/
theorem W3_main_v33_step (c : Dev nD) : W3 m ρ c (Proc.devRef .tc main_v33)
    = (mulf (mulf (Host.gather gather_S100000_S1700000x1_S1700000_n_0_n_n_0_1_1 (W2 m ρ c (Proc.devRef .tc main_v17))
          (broadcastInDim S1700000x1 ![0] bcast_S1700000_S1700000x1_0 (Cert.Spec.wrapT (W2 m ρ c (Proc.devRef .tc main_v3)))))
        (W2 m ρ c (Proc.devRef .tc main_v8)))
      (Host.gather gather_S100000_S1700000x1_S1700000_n_0_n_n_0_1_1 (W2 m ρ c (Proc.devRef .tc main_v17))
        (broadcastInDim S1700000x1 ![0] bcast_S1700000_S1700000x1_0 (Cert.Spec.wrapT (W2 m ρ c (Proc.devRef .tc main_v6))))) : FVec Ideal S1700000 .f32) := by
  show StableHlo.after hostOps0_2 (W2 m ρ c) (Proc.devRef .tc main_v33) = _
  generalize W2 m ρ c = W
  after_results_simp <;> rfl

theorem W3_keep_main_v3 (c : Dev nD) : W3 m ρ c (Proc.devRef .tc main_v3) = W2 m ρ c (Proc.devRef .tc main_v3) :=
  StableHlo.after_of_forall_not_mem _ _ (List.forall_iff_forall_mem.mp (by
      simp only [hostOps0_2, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem W3_keep_main_v6 (c : Dev nD) : W3 m ρ c (Proc.devRef .tc main_v6) = W2 m ρ c (Proc.devRef .tc main_v6) :=
  StableHlo.after_of_forall_not_mem _ _ (List.forall_iff_forall_mem.mp (by
      simp only [hostOps0_2, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- Before the first region: the edge targets, sources and normalization, from the launch contents of the edge
    list and the edge weights. -/
theorem W3_main_v6 (c : Dev nD) : W3 m ρ c (Proc.devRef .tc main_v6) = Cert.Spec.colT (m ((c : Thread nD τ).loc main_arg1)) := by
  rw [W3_keep_main_v6, W2_keep_main_v6, W1_main_v6]

theorem W3_main_v3 (c : Dev nD) : W3 m ρ c (Proc.devRef .tc main_v3) = Cert.Spec.rowT (m ((c : Thread nD τ).loc main_arg1)) := by
  rw [W3_keep_main_v3, W2_keep_main_v3, W1_main_v3]

theorem W3_main_v33 (c : Dev nD) : W3 m ρ c (Proc.devRef .tc main_v33) = Cert.Spec.normT (m ((c : Thread nD τ).loc main_arg1)) (m ((c : Thread nD τ).loc main_arg2)) := by
  rw [W3_main_v33_step, W2_main_v17, W2_keep_main_v3, W2_keep_main_v6, W2_keep_main_v8, W1_main_v13, W1_main_v16,
    W1_main_cst_3, W1_main_v3, W1_main_v6, W1_main_v8]
  rfl

set_option maxHeartbeats 2000000 in
/-- Between the first two regions: one round of message passing on the first region's output. -/
theorem W5_main_v48 (c : Dev nD) : W5 m ρ c (Proc.devRef .tc main_v48)
    = Cert.Spec.aggT (W4 m ρ c (Proc.devRef .tc main_v6)) (W4 m ρ c (Proc.devRef .tc main_v33)) (W4 m ρ c (Proc.devRef .tc main_v3)) (W4 m ρ c (Proc.devRef .tc main_v34)) := by
  show StableHlo.after hostOps1 (W4 m ρ c) (Proc.devRef .tc main_v48) = _
  generalize W4 m ρ c = W
  after_results_simp <;> rfl

/-- … and the first bias as a row. -/
theorem W5_main_v49 (c : Dev nD) : W5 m ρ c (Proc.devRef .tc main_v49)
    = shapeCast S1x64 (W4 m ρ c (Proc.devRef .tc main_arg4)) shapeCasts_S64_S1x64 := by
  show StableHlo.after hostOps1 (W4 m ρ c) (Proc.devRef .tc main_v49) = _
  generalize W4 m ρ c = W
  after_results_simp <;> rfl

set_option maxHeartbeats 2000000 in
/-- Between the last two regions: one round of message passing on the second region's output. -/
theorem W7_main_v64 (c : Dev nD) : W7 m ρ c (Proc.devRef .tc main_v64)
    = Cert.Spec.aggT (W6 m ρ c (Proc.devRef .tc main_v6)) (W6 m ρ c (Proc.devRef .tc main_v33)) (W6 m ρ c (Proc.devRef .tc main_v3)) (W6 m ρ c (Proc.devRef .tc main_v50)) := by
  show StableHlo.after hostOps2 (W6 m ρ c) (Proc.devRef .tc main_v64) = _
  generalize W6 m ρ c = W
  after_results_simp <;> rfl

/-- … and the second bias as a row. -/
theorem W7_main_v65 (c : Dev nD) : W7 m ρ c (Proc.devRef .tc main_v65)
    = shapeCast S1x64 (W6 m ρ c (Proc.devRef .tc main_arg6)) shapeCasts_S64_S1x64 := by
  show StableHlo.after hostOps2 (W6 m ρ c) (Proc.devRef .tc main_v65) = _
  generalize W6 m ρ c = W
  after_results_simp <;> rfl

end Cert.KernelIdeal.Chain

end
-- ==== Proof.LibMatmulNN.lean ====
/-
  A matrix product of a row-major `M × K` block against a `K × N` block (the right operand NOT transposed:
  the left operand's axis 1 is contracted with the right operand's axis 0), accumulated into the zero block,
  read at the extended reals: entry `(p, q)` of the result is the sum over `k` of `x[p, k] · w[k, q]`.
  The matrix unit's contraction index ranges over a one-axis shape of extent `K`; it is re-indexed to `Fin K`,
  and the operand indices the dot's dimension record computes are named coordinate by coordinate.
  General in the three extents and in the operands' float formats.
-/
import Idealize.ShloMosaic.PureOps.Ideal.Laws
import Idealize.ShloMosaic.Lib.ValueIdx

noncomputable section

open scoped BigOperators

namespace LibMatmulNN

open Idealize.ShloMosaic Idealize.ShloMosaic.ValueIdx

variable (M K N : Nat)

/-- The left operand's index at output index `(p, q)` and contraction index `k` is `(p, k)`. -/
theorem lhsIdx_eq (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl _ _).trans hk

/-- The right operand's index at output index `(p, q)` and contraction index `k` is `(k, q)`. -/
theorem rhsIdx_eq (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl _ _).trans hk
  | ⟨1, _⟩ => rfl

/-- Entry `(p, q)` of `x · w` accumulated into zero is `∑ k, x[p, k] · w[k, q]` on the extended reals. -/
theorem matmul_zero_apply {φ₁ φ₂ : FTy} (prec : Option ContractPrecision)
    (x : FVec Ideal ⟨2, ![M, K]⟩ φ₁) (w : FVec Ideal ⟨2, ![K, N]⟩ φ₂) (p : Fin M) (q : Fin N) :
    FloatOps.matmul (DotDims.plain M K N) prec x w (constant (F := Ideal) ⟨2, ![M, N]⟩ .f32 0x00000000#32) (ix2 p q)
      = ∑ k : Fin K, x (ix2 p k) * w (ix2 k q) := by
  rw [Ideal.matmul_constant_zero_apply, ← Equiv.sum_comp (contrEquiv1 (DotDims.plain M K N) K rfl rfl).symm]
  refine Finset.sum_congr rfl fun k _ => ?_
  rw [lhsIdx_eq, rhsIdx_eq]

end LibMatmulNN

end
-- ==== Proof.Bodies.lean ====
/-
  The three kernel bodies read at one entry, on the extended reals.

  Body 0 stores the product of its row block with the whole weight matrix: entry (p, q) is the sum over k of
  x[p, k] · w[k, q]; the changes of float format around the matrix unit are the identity.
  Body 1 first adds the bias row to every row of its block and clamps at zero, then multiplies by the weight
  matrix: entry (p, q) is the sum over k of max (x[p, k] + b[0, k]) 0 · w[k, q].
  Body 2 only adds the bias row and clamps: entry (p, q) is max (x[p, q] + b[0, q]) 0.
-/
import proofs.«179067_j90512140796730_2_alg».proof.Proof.Gen.KernelIdeal.Skeleton
import proofs.«179067_j90512140796730_2_alg».proof.Proof.LibMatmulNN
import Idealize.ShloMosaic.Lib.Pipeline.Value
import Idealize.ShloMosaic.Lib.ValueIdx
import Idealize.ShloMosaic.Lib.ValueLayout

noncomputable section

open scoped BigOperators

namespace Cert.KernelIdeal.Bodies

open Idealize.ShloMosaic Idealize.ShloMosaic.ValueIdx Cert.KernelIdeal Cert.KernelIdeal.Gen

/-- The zero every clamp compares with: the extended real the all-zero word encodes. -/
abbrev z : EReal := Ideal.ofBits .f32 0x00000000#32

/-- Body 0 at entry (p, q): the row p of the block against the column q of the weights. -/
theorem pay0_apply (x : Vec Ideal S10000x64 .f32) (w : Vec Ideal S64x64 .f32) (p : Fin 10000) (q : Fin 64) :
    k0_pay1 (F := Ideal) x w (ix2 p q) = ∑ k : Fin 64, x (ix2 p k) * w (ix2 k q) := by
  unfold k0_pay1
  exact LibMatmulNN.matmul_zero_apply 10000 64 64 none (truncf .bf16 x bitsLt_bf16_f32) (truncf .bf16 w bitsLt_bf16_f32) p q

/-- Body 2 at entry (p, q): the bias row's entry q added, clamped at zero. -/
theorem pay2_apply (x : Vec Ideal S10000x64 .f32) (b : Vec Ideal S1x64 .f32) (p : Fin 10000) (q : Fin 64) :
    k2_pay1 (F := Ideal) x b (ix2 p q) = max (x (ix2 p q) + b (ix2 (0 : Fin 1) q)) z := by
  unfold k2_pay1
  rw [shapeCast_self, shapeCast_self]
  show max (x (ix2 p q) + broadcastTo S10000x64 b broadcasts_S1x64_S10000x64 (ix2 p q)) _ = _
  rw [broadcastTo_1b_ab_apply]
  rfl

/-- The clamped, biased block of body 1 at entry (p, k). -/
theorem relu_bias_apply (x : Vec Ideal S10000x64 .f32) (b : Vec Ideal S1x64 .f32) (p : Fin 10000) (k : Fin 64) :
    (maximumf (addf (shapeCast S10000x64 x shapeCasts_S10000x64_S10000x64)
        (broadcastTo S10000x64 (shapeCast S1x64 b shapeCasts_S1x64_S1x64) broadcasts_S1x64_S10000x64))
      (broadcast S10000x64 (Scalar.ofBits (F := Ideal) .f32 0x00000000#32)) : FVec Ideal S10000x64 .f32) (ix2 p k)
      = max (x (ix2 p k) + b (ix2 (0 : Fin 1) k)) z := by
  rw [shapeCast_self, shapeCast_self]
  show max (x (ix2 p k) + broadcastTo S10000x64 b broadcasts_S1x64_S10000x64 (ix2 p k)) _ = _
  rw [broadcastTo_1b_ab_apply]
  rfl

/-- Body 1 at entry (p, q): the clamped, biased row p against the column q of the weights. -/
theorem pay1_apply (x : Vec Ideal S10000x64 .f32) (b : Vec Ideal S1x64 .f32) (w : Vec Ideal S64x64 .f32)
    (p : Fin 10000) (q : Fin 64) :
    k1_pay1 (F := Ideal) x b w (ix2 p q) = ∑ k : Fin 64, max (x (ix2 p k) + b (ix2 (0 : Fin 1) k)) z * w (ix2 k q) := by
  unfold k1_pay1
  refine (LibMatmulNN.matmul_zero_apply 10000 64 64 none _ (truncf .bf16 w bitsLt_bf16_f32) p q).trans ?_
  refine Finset.sum_congr rfl fun k _ => ?_
  refine congrArg (· * w (ix2 k q)) ?_
  exact relu_bias_apply x b p k

end Cert.KernelIdeal.Bodies

end
-- ==== Proof.Blocks0.lean ====
/-
  The first kernel's output array, whole.

  The grid has ten points; point t stages rows 10000·t … 10000·t + 9999 of the node features (all 64 columns) and the
  whole 64 × 64 weight matrix, and writes back the same rows of the product. A row of the product depends only on
  the same row of the features, so every written block is the restriction of ONE function of the two whole arrays,
  the matrix product, and the ten blocks cover all 100000 rows: after the last point the output array IS the
  product of the features as the region found them with the weights as the region found them.
-/
import proofs.«179067_j90512140796730_2_alg».proof.Proof.Gen.KernelIdeal.Frame
import proofs.«179067_j90512140796730_2_alg».proof.Proof.Bodies

noncomputable section

open scoped BigOperators

namespace Cert.KernelIdeal.Blocks

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The printed zero offsets of a whole-block access. -/
theorem hz : (![0, 0] : Fin 2 → Nat) = fun _ => 0 := funext fun a => by fin_cases a <;> rfl

/-- The product of a 100000 × 64 array with a 64 × 64 matrix, entry by entry. -/
def mm (x : S100000x64.Idx → EReal) (w : S64x64.Idx → EReal) : S100000x64.Idx → EReal :=
  fun i => ∑ k : Fin 64, x (ix2 (i 0 : Fin 100000) k) * w (ix2 k (i 1 : Fin 64))

/-- The printed index maps over the ten points: the row blocks of input and output move together, one block per
    point; the column block and the weight matrix's block stay at the origin. -/
theorem idx_facts0 : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) ≤ 9 :=
  (by decide +kernel : ∀ t : Fin grid0.N, _)

/-- Every one of the ten row blocks is some point's. -/
theorem idx_onto0 : ∀ q0 : Fin 10, ∃ t : Fin cfg0.N, win0_2.index t = ![q0.val, 0] :=
  (by decide +kernel : ∀ q0 : Fin 10, ∃ t : Fin grid0.N, win0_2.index t = ![q0.val, 0])

/-- What point t writes back is block t of the product of the two whole arrays. -/
theorem flushed0 (c : Dev nD) (t : Fin cfg0.N) :
    (dat0 V c).flushed 2 t = ((cfg0.win 2).blk t).view.read (Elt Ideal) (mm (V c main_arg0) (V c main_arg3)) := by
  show (cfg0.win 2).cut (grid0.coords t) ((dat0 V c).after 2 t) = _
  rw [after0_2]
  unfold out0_2
  rw [View.canon_unit_zero hz]
  simp only [View.ld_unit_zero (S := S10000x64) hz, View.ld_unit_zero (S := S64x64) hz]
  obtain ⟨e0, e1, e2, e3, e4, e5⟩ := idx_facts0 t
  funext j
  obtain ⟨p, q, rfl⟩ : ∃ (p : Fin 10000) (q : Fin 64), j = ix2 p q := ⟨j 0, j 1, eq_ix2 j⟩
  show k0_pay1 (iblk0 V c 0 t) (iblk0 V c 1 t) (ix2 p q) = mm (V c main_arg0) (V c main_arg3) (((cfg0.win 2).blk t).view.emb (ix2 p q))
  refine (Bodies.pay0_apply (iblk0 V c 0 t) (iblk0 V c 1 t) p q).trans ?_
  unfold mm
  refine Finset.sum_congr rfl fun k _ => ?_
  have h0 : iblk0 V c 0 t (ix2 p k) = V c main_arg0 (ix2 ((((cfg0.win 2).blk t).view.emb (ix2 p q)) 0 : Fin 100000) k) := by
    show V c main_arg0 (((cfg0.win 0).blk t).view.emb (ix2 p k)) = _
    refine congrArg (V c main_arg0) ?_
    funext a; apply Fin.ext
    match a with
    | ⟨0, _⟩ => show win0_0.index t (0 : Fin 2) * 10000 + 1 * p.val = win0_2.index t (0 : Fin 2) * 10000 + 1 * p.val; omega
    | ⟨1, _⟩ => show win0_0.index t (1 : Fin 2) * 64 + 1 * k.val = k.val; omega
  have h1 : iblk0 V c 1 t (ix2 k q) = V c main_arg3 (ix2 k ((((cfg0.win 2).blk t).view.emb (ix2 p q)) 1 : Fin 64)) := by
    show V c main_arg3 (((cfg0.win 1).blk t).view.emb (ix2 k q)) = _
    refine congrArg (V c main_arg3) ?_
    funext a; apply Fin.ext
    match a with
    | ⟨0, _⟩ => show win0_1.index t (0 : Fin 2) * 64 + 1 * k.val = k.val; omega
    | ⟨1, _⟩ => show win0_1.index t (1 : Fin 2) * 64 + 1 * q.val = win0_2.index t (1 : Fin 2) * 64 + 1 * q.val; omega
  rw [h0, h1]

/-- An index of the output array is in point t's block iff each coordinate is in the block's range. -/
theorem mem_blk0 (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v34).slice (win0_2.rect t)).set ↔ _
  rw [View.set_slice_whole, Rect.mem_set_unit]
  exact Iff.rfl

/-- The ten blocks cover the array: row r lies in the block of point r / 10000. -/
theorem cover0 (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := idx_onto0 ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- After the last point the first kernel's output array is the product of the features with the weights, both as
    the region found them. -/
theorem final0 (c : Dev nD) : (dat0 V c).arrAt 2 cfg0.N = mm (V c main_arg0) (V c main_arg3) :=
  (dat0 V c).arrAt_eq_of_cover 2 (mm (V c main_arg0) (V c main_arg3)) (fun t _ => flushed0 V c t) cover0

end Cert.KernelIdeal.Blocks

end
-- ==== Proof.Blocks1.lean ====
/-
  The second kernel's output array, whole.

  Point t of the ten stages rows 10000·t … 10000·t + 9999 of the first layer's aggregate, the 1 × 64 bias row and the
  whole 64 × 64 weight matrix, and writes back the same rows of: bias added, clamped at zero, multiplied by the
  weights. A row of the result depends only on the same row of the aggregate, so every written block is the
  restriction of one function of the three whole arrays, and the ten blocks cover all 100000 rows.
-/
import proofs.«179067_j90512140796730_2_alg».proof.Proof.Gen.KernelIdeal.Frame
import proofs.«179067_j90512140796730_2_alg».proof.Proof.Bodies

noncomputable section

open scoped BigOperators

namespace Cert.KernelIdeal.Blocks

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The printed zero offsets of a whole-block access. -/
theorem hz1 : (![0, 0] : Fin 2 → Nat) = fun _ => 0 := funext fun a => by fin_cases a <;> rfl

/-- Bias row added, clamped at zero, then multiplied by a 64 × 64 matrix, entry by entry. -/
def mmRelu (x : S100000x64.Idx → EReal) (b : S1x64.Idx → EReal) (w : S64x64.Idx → EReal) : S100000x64.Idx → EReal :=
  fun i => ∑ k : Fin 64, max (x (ix2 (i 0 : Fin 100000) k) + b (ix2 (0 : Fin 1) k)) Bodies.z * w (ix2 k (i 1 : Fin 64))

/-- The printed index maps over the ten points: the row blocks of input and output move together, one block per
    point; everything else stays at the origin. -/
theorem idx_facts1 : ∀ t : Fin cfg1.N, win1_0.index t (0 : Fin 2) = win1_3.index t (0 : Fin 2)
    ∧ win1_0.index t (1 : Fin 2) = 0 ∧ win1_1.index t (0 : Fin 2) = 0 ∧ win1_1.index t (1 : Fin 2) = 0
    ∧ win1_2.index t (0 : Fin 2) = 0 ∧ win1_2.index t (1 : Fin 2) = 0
    ∧ win1_3.index t (1 : Fin 2) = 0 ∧ win1_3.index t (0 : Fin 2) ≤ 9 :=
  (by decide +kernel : ∀ t : Fin grid1.N, _)

/-- Every one of the ten row blocks is some point's. -/
theorem idx_onto1 : ∀ q0 : Fin 10, ∃ t : Fin cfg1.N, win1_3.index t = ![q0.val, 0] :=
  (by decide +kernel : ∀ q0 : Fin 10, ∃ t : Fin grid1.N, win1_3.index t = ![q0.val, 0])

/-- What point t writes back is block t of that function of the three whole arrays. -/
theorem flushed1 (c : Dev nD) (t : Fin cfg1.N) :
    (dat1 V c).flushed 3 t = ((cfg1.win 3).blk t).view.read (Elt Ideal) (mmRelu (V c main_v48) (V c main_v49) (V c main_arg5)) := by
  show (cfg1.win 3).cut (grid1.coords t) ((dat1 V c).after 3 t) = _
  rw [after1_3]
  unfold out1_3
  rw [View.canon_unit_zero hz1]
  simp only [View.ld_unit_zero (S := S10000x64) hz1, View.ld_unit_zero (S := S64x64) hz1, View.ld_unit_zero (S := S1x64) hz1]
  obtain ⟨e0, e1, e2, e3, e4, e5, e6, e7⟩ := idx_facts1 t
  funext j
  obtain ⟨p, q, rfl⟩ : ∃ (p : Fin 10000) (q : Fin 64), j = ix2 p q := ⟨j 0, j 1, eq_ix2 j⟩
  show k1_pay1 (iblk1 V c 0 t) (iblk1 V c 1 t) (iblk1 V c 2 t) (ix2 p q) = mmRelu (V c main_v48) (V c main_v49) (V c main_arg5) (((cfg1.win 3).blk t).view.emb (ix2 p q))
  refine (Bodies.pay1_apply (iblk1 V c 0 t) (iblk1 V c 1 t) (iblk1 V c 2 t) p q).trans ?_
  unfold mmRelu
  refine Finset.sum_congr rfl fun k _ => ?_
  have h0 : iblk1 V c 0 t (ix2 p k) = V c main_v48 (ix2 ((((cfg1.win 3).blk t).view.emb (ix2 p q)) 0 : Fin 100000) k) := by
    show V c main_v48 (((cfg1.win 0).blk t).view.emb (ix2 p k)) = _
    refine congrArg (V c main_v48) ?_
    funext a; apply Fin.ext
    match a with
    | ⟨0, _⟩ => show win1_0.index t (0 : Fin 2) * 10000 + 1 * p.val = win1_3.index t (0 : Fin 2) * 10000 + 1 * p.val; omega
    | ⟨1, _⟩ => show win1_0.index t (1 : Fin 2) * 64 + 1 * k.val = k.val; omega
  have h1 : iblk1 V c 1 t (ix2 (0 : Fin 1) k) = V c main_v49 (ix2 (0 : Fin 1) k) := by
    show V c main_v49 (((cfg1.win 1).blk t).view.emb (ix2 (0 : Fin 1) k)) = _
    refine congrArg (V c main_v49) ?_
    funext a; apply Fin.ext
    match a with
    | ⟨0, _⟩ => show win1_1.index t (0 : Fin 2) * 1 + 1 * 0 = 0; omega
    | ⟨1, _⟩ => show win1_1.index t (1 : Fin 2) * 64 + 1 * k.val = k.val; omega
  have h2 : iblk1 V c 2 t (ix2 k q) = V c main_arg5 (ix2 k ((((cfg1.win 3).blk t).view.emb (ix2 p q)) 1 : Fin 64)) := by
    show V c main_arg5 (((cfg1.win 2).blk t).view.emb (ix2 k q)) = _
    refine congrArg (V c main_arg5) ?_
    funext a; apply Fin.ext
    match a with
    | ⟨0, _⟩ => show win1_2.index t (0 : Fin 2) * 64 + 1 * k.val = k.val; omega
    | ⟨1, _⟩ => show win1_2.index t (1 : Fin 2) * 64 + 1 * q.val = win1_3.index t (1 : Fin 2) * 64 + 1 * q.val; omega
  rw [h0, h1, h2]

/-- An index of the output array is in point t's block iff each coordinate is in the block's range. -/
theorem mem_blk1 (t : Fin cfg1.N) (i : S100000x64.Idx) :
    i ∈ ((cfg1.win 3).blk t).view.set ↔ ∀ a : Fin 2, win1_3.index t a * S10000x64.size a ≤ (i a).val ∧ (i a).val < win1_3.index t a * S10000x64.size a + S10000x64.size a := by
  show i ∈ ((View.whole main_v50).slice (win1_3.rect t)).set ↔ _
  rw [View.set_slice_whole, Rect.mem_set_unit]
  exact Iff.rfl

/-- The ten blocks cover the array: row r lies in the block of point r / 10000. -/
theorem cover1 (i : S100000x64.Idx) : ∃ t : Fin cfg1.N, (cfg1.win 3).flush t = true ∧ i ∈ ((cfg1.win 3).blk t).view.set := by
  have hi0 : (i 0).val < 100000 := (i 0).isLt
  have hi1 : (i 1).val < 64 := (i 1).isLt
  obtain ⟨t, ht⟩ := idx_onto1 ⟨(i 0).val / 10000, by omega⟩
  have q0 : win1_3.index t (0 : Fin 2) = (i 0).val / 10000 := congrFun ht 0
  have q1 : win1_3.index t (1 : Fin 2) = 0 := congrFun ht 1
  refine ⟨t, flush1_3 t, ?_⟩
  rw [mem_blk1]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 64 ≤ (i 1).val ∧ (i 1).val < win1_3.index t (1 : Fin 2) * 64 + 64; omega

/-- After the last point the second kernel's output array is that function of its three operand arrays as the
    region found them. -/
theorem final1 (c : Dev nD) : (dat1 V c).arrAt 3 cfg1.N = mmRelu (V c main_v48) (V c main_v49) (V c main_arg5) :=
  (dat1 V c).arrAt_eq_of_cover 3 (mmRelu (V c main_v48) (V c main_v49) (V c main_arg5)) (fun t _ => flushed1 V c t) cover1

end Cert.KernelIdeal.Blocks

end
-- ==== Proof.Blocks2.lean ====
/-
  The third kernel's output array, whole.

  Point t of the ten stages rows 10000·t … 10000·t + 9999 of the second layer's aggregate and the 1 × 64 bias row,
  and writes back the same rows with the bias added and clamped at zero: an entry of the result depends only on
  the same entry of the aggregate and on the bias of its column, so every written block is the restriction of one
  function of the two whole arrays, and the ten blocks cover all 100000 rows.
-/
import proofs.«179067_j90512140796730_2_alg».proof.Proof.Gen.KernelIdeal.Frame
import proofs.«179067_j90512140796730_2_alg».proof.Proof.Bodies

noncomputable section

open scoped BigOperators

namespace Cert.KernelIdeal.Blocks

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The printed zero offsets of a whole-block access. -/
theorem hz2 : (![0, 0] : Fin 2 → Nat) = fun _ => 0 := funext fun a => by fin_cases a <;> rfl

/-- Bias row added to every row, clamped at zero, entry by entry. -/
def biasRelu (x : S100000x64.Idx → EReal) (b : S1x64.Idx → EReal) : S100000x64.Idx → EReal :=
  fun i => max (x (ix2 (i 0 : Fin 100000) (i 1 : Fin 64)) + b (ix2 (0 : Fin 1) (i 1 : Fin 64))) Bodies.z

/-- The printed index maps over the ten points: the row blocks of input and output move together, one block per
    point; everything else stays at the origin. -/
theorem idx_facts2 : ∀ t : Fin cfg2.N, win2_0.index t (0 : Fin 2) = win2_2.index t (0 : Fin 2)
    ∧ win2_0.index t (1 : Fin 2) = 0 ∧ win2_1.index t (0 : Fin 2) = 0 ∧ win2_1.index t (1 : Fin 2) = 0
    ∧ win2_2.index t (1 : Fin 2) = 0 ∧ win2_2.index t (0 : Fin 2) ≤ 9 :=
  (by decide +kernel : ∀ t : Fin grid2.N, _)

/-- Every one of the ten row blocks is some point's. -/
theorem idx_onto2 : ∀ q0 : Fin 10, ∃ t : Fin cfg2.N, win2_2.index t = ![q0.val, 0] :=
  (by decide +kernel : ∀ q0 : Fin 10, ∃ t : Fin grid2.N, win2_2.index t = ![q0.val, 0])

/-- What point t writes back is block t of that function of the two whole arrays. -/
theorem flushed2 (c : Dev nD) (t : Fin cfg2.N) :
    (dat2 V c).flushed 2 t = ((cfg2.win 2).blk t).view.read (Elt Ideal) (biasRelu (V c main_v64) (V c main_v65)) := by
  show (cfg2.win 2).cut (grid2.coords t) ((dat2 V c).after 2 t) = _
  rw [after2_2]
  unfold out2_2
  rw [View.canon_unit_zero hz2]
  simp only [View.ld_unit_zero (S := S10000x64) hz2, View.ld_unit_zero (S := S1x64) hz2]
  obtain ⟨e0, e1, e2, e3, e4, e5⟩ := idx_facts2 t
  funext j
  obtain ⟨p, q, rfl⟩ : ∃ (p : Fin 10000) (q : Fin 64), j = ix2 p q := ⟨j 0, j 1, eq_ix2 j⟩
  show k2_pay1 (iblk2 V c 0 t) (iblk2 V c 1 t) (ix2 p q) = biasRelu (V c main_v64) (V c main_v65) (((cfg2.win 2).blk t).view.emb (ix2 p q))
  refine (Bodies.pay2_apply (iblk2 V c 0 t) (iblk2 V c 1 t) p q).trans ?_
  unfold biasRelu
  have h0 : iblk2 V c 0 t (ix2 p q) = V c main_v64 (ix2 ((((cfg2.win 2).blk t).view.emb (ix2 p q)) 0 : Fin 100000) ((((cfg2.win 2).blk t).view.emb (ix2 p q)) 1 : Fin 64)) := by
    show V c main_v64 (((cfg2.win 0).blk t).view.emb (ix2 p q)) = _
    refine congrArg (V c main_v64) ?_
    funext a; apply Fin.ext
    match a with
    | ⟨0, _⟩ => show win2_0.index t (0 : Fin 2) * 10000 + 1 * p.val = win2_2.index t (0 : Fin 2) * 10000 + 1 * p.val; omega
    | ⟨1, _⟩ => show win2_0.index t (1 : Fin 2) * 64 + 1 * q.val = win2_2.index t (1 : Fin 2) * 64 + 1 * q.val; omega
  have h1 : iblk2 V c 1 t (ix2 (0 : Fin 1) q) = V c main_v65 (ix2 (0 : Fin 1) ((((cfg2.win 2).blk t).view.emb (ix2 p q)) 1 : Fin 64)) := by
    show V c main_v65 (((cfg2.win 1).blk t).view.emb (ix2 (0 : Fin 1) q)) = _
    refine congrArg (V c main_v65) ?_
    funext a; apply Fin.ext
    match a with
    | ⟨0, _⟩ => show win2_1.index t (0 : Fin 2) * 1 + 1 * 0 = 0; omega
    | ⟨1, _⟩ => show win2_1.index t (1 : Fin 2) * 64 + 1 * q.val = win2_2.index t (1 : Fin 2) * 64 + 1 * q.val; omega
  rw [h0, h1]

/-- An index of the output array is in point t's block iff each coordinate is in the block's range. -/
theorem mem_blk2 (t : Fin cfg2.N) (i : S100000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v66).slice (win2_2.rect t)).set ↔ _
  rw [View.set_slice_whole, Rect.mem_set_unit]
  exact Iff.rfl

/-- The ten blocks cover the array: row r lies in the block of point r / 10000. -/
theorem cover2 (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  obtain ⟨t, ht⟩ := idx_onto2 ⟨(i 0).val / 10000, by omega⟩
  have q0 : win2_2.index t (0 : Fin 2) = (i 0).val / 10000 := congrFun ht 0
  have q1 : win2_2.index t (1 : Fin 2) = 0 := congrFun ht 1
  refine ⟨t, flush2_2 t, ?_⟩
  rw [mem_blk2]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 64 ≤ (i 1).val ∧ (i 1).val < win2_2.index t (1 : Fin 2) * 64 + 64; omega

/-- After the last point the third kernel's output array is that function of its two operand arrays as the region
    found them. -/
theorem final2 (c : Dev nD) : (dat2 V c).arrAt 2 cfg2.N = biasRelu (V c main_v64) (V c main_v65) :=
  (dat2 V c).arrAt_eq_of_cover 2 (biasRelu (V c main_v64) (V c main_v65)) (fun t _ => flushed2 V c t) cover2

end Cert.KernelIdeal.Blocks

end
-- ==== Proof.Bridge.lean ====
/-
  The three kernels' whole-array functions are the reference's own operations, array for array.

  The first kernel's product is the host's contraction of axis 1 with axis 0: both are, entry by entry, the sum
  over k of x[p, k] · w[k, q], in the same order. The bias reshaped to a row and added to every row is the bias
  broadcast to the whole array and added; a clamp against the scalar zero is a maximum with the zero array. So the
  second kernel's array is the host's contraction of the clamped, biased aggregate, and the third kernel's array the
  clamped, biased aggregate itself.
-/
import proofs.«179067_j90512140796730_2_alg».proof.Proof.Blocks0
import proofs.«179067_j90512140796730_2_alg».proof.Proof.Blocks1
import proofs.«179067_j90512140796730_2_alg».proof.Proof.Blocks2
import proofs.«179067_j90512140796730_2_alg».proof.Proof.Spec
import proofs.«179067_j90512140796730_2_alg».proof.Proof.Gen.ReferenceIdeal.Read

noncomputable section

open scoped BigOperators

namespace Cert.Bridge

open Idealize.ShloMosaic Idealize.ShloMosaic.ValueIdx

/-- The left operand's index in the host's contraction at output entry (p, q) and contracted index k. -/
theorem lidx_eq (p : Fin 100000) (q : Fin 64) (k : Fin 64) :
    Cert.ReferenceIdeal.Read.lidx_main_v34 (ix2 p q) k = ix2 p k :=
  funext fun a => Fin.ext (by match a with | ⟨0, _⟩ => rfl | ⟨1, _⟩ => rfl)

/-- The right operand's. -/
theorem ridx_eq (p : Fin 100000) (q : Fin 64) (k : Fin 64) :
    Cert.ReferenceIdeal.Read.ridx_main_v34 (ix2 p q) k = ix2 k q :=
  funext fun a => Fin.ext (by match a with | ⟨0, _⟩ => rfl | ⟨1, _⟩ => rfl)

/-- The host's product at entry (p, q) is the sum over the contracted index. -/
theorem dot_apply (x : FVec Ideal Cert.ReferenceIdeal.S100000x64 .f32) (w : FVec Ideal Cert.ReferenceIdeal.S64x64 .f32)
    (p : Fin 100000) (q : Fin 64) :
    Cert.Spec.dotT x w (ix2 p q) = ∑ k : Fin 64, x (ix2 p k) * w (ix2 k q) := by
  show Cert.ReferenceIdeal.Read.val_main_v34 (F := Ideal) x w (ix2 p q) = _
  rw [Cert.ReferenceIdeal.Read.val_main_v34_apply]
  refine Finset.sum_congr rfl fun k _ => ?_
  rw [lidx_eq, ridx_eq]

/-- The first kernel's array is the host's product. -/
theorem mm_eq (x : FVec Ideal Cert.ReferenceIdeal.S100000x64 .f32) (w : FVec Ideal Cert.ReferenceIdeal.S64x64 .f32) :
    Cert.KernelIdeal.Blocks.mm x w = Cert.Spec.dotT x w := by
  funext i
  obtain ⟨p, q, rfl⟩ : ∃ (p : Fin 100000) (q : Fin 64), i = ix2 p q := ⟨i 0, i 1, eq_ix2 i⟩
  exact (dot_apply x w p q).symm

/-- The broadcast bias at entry (p, q) is the bias of column q. -/
theorem bias_apply (b : FVec Ideal Cert.ReferenceIdeal.S64 .f32) (p : Fin 100000) (q : Fin 64) :
    Cert.Spec.biasT b (ix2 p q) = b (ix1 q) := by
  show Cert.ReferenceIdeal.Read.val_main_v49 (F := Ideal) b (ix2 p q) = _
  rw [Cert.ReferenceIdeal.Read.val_main_v49_apply, Cert.ReferenceIdeal.Read.val_main_v48_apply]
  refine congrArg b ?_
  funext a
  match a with
  | ⟨0, _⟩ => rfl

/-- The zero array at an entry is the zero the kernels clamp against. -/
theorem zero_apply (j : Cert.ReferenceIdeal.S100000x64.Idx) : Cert.Spec.zeroT j = Cert.KernelIdeal.Bodies.z := by
  show Cert.ReferenceIdeal.Read.val_main_call1_v0 (F := Ideal) j = _
  rw [Cert.ReferenceIdeal.Read.val_main_call1_v0_apply]
  rfl

/-- The bias reshaped to a row, at column k. -/
theorem row_apply (b : FVec Ideal Cert.ReferenceIdeal.S64 .f32) (h : Cert.KernelIdeal.S64.ShapeCasts Cert.KernelIdeal.S1x64) (k : Fin 64) :
    shapeCast Cert.KernelIdeal.S1x64 b h (ix2 (0 : Fin 1) k) = b (ix1 k) :=
  shapeCast_a_1a_apply b h 0 k

/-- A clamped, biased entry, the kernels' way and the host's. -/
theorem relu_entry (agg : FVec Ideal Cert.ReferenceIdeal.S100000x64 .f32) (b : FVec Ideal Cert.ReferenceIdeal.S64 .f32)
    (h : Cert.KernelIdeal.S64.ShapeCasts Cert.KernelIdeal.S1x64) (p : Fin 100000) (q : Fin 64) :
    max (agg (ix2 p q) + shapeCast Cert.KernelIdeal.S1x64 b h (ix2 (0 : Fin 1) q)) Cert.KernelIdeal.Bodies.z
      = (maximumf (addf agg (Cert.Spec.biasT b)) Cert.Spec.zeroT : FVec Ideal Cert.ReferenceIdeal.S100000x64 .f32) (ix2 p q) := by
  show _ = max (agg (ix2 p q) + Cert.Spec.biasT b (ix2 p q)) (Cert.Spec.zeroT (ix2 p q))
  rw [row_apply, bias_apply, zero_apply]

/-- The third kernel's array is the clamped, biased aggregate. -/
theorem relu_eq (agg : FVec Ideal Cert.ReferenceIdeal.S100000x64 .f32) (b : FVec Ideal Cert.ReferenceIdeal.S64 .f32)
    (h : Cert.KernelIdeal.S64.ShapeCasts Cert.KernelIdeal.S1x64) :
    Cert.KernelIdeal.Blocks.biasRelu agg (shapeCast Cert.KernelIdeal.S1x64 b h)
      = maximumf (addf agg (Cert.Spec.biasT b)) Cert.Spec.zeroT := by
  funext i
  obtain ⟨p, q, rfl⟩ : ∃ (p : Fin 100000) (q : Fin 64), i = ix2 p q := ⟨i 0, i 1, eq_ix2 i⟩
  exact relu_entry agg b h p q

/-- The second kernel's array is the host's product of the clamped, biased aggregate with the weights. -/
theorem mmRelu_eq (agg : FVec Ideal Cert.ReferenceIdeal.S100000x64 .f32) (b : FVec Ideal Cert.ReferenceIdeal.S64 .f32)
    (h : Cert.KernelIdeal.S64.ShapeCasts Cert.KernelIdeal.S1x64) (w : FVec Ideal Cert.ReferenceIdeal.S64x64 .f32) :
    Cert.KernelIdeal.Blocks.mmRelu agg (shapeCast Cert.KernelIdeal.S1x64 b h) w
      = Cert.Spec.dotT (maximumf (addf agg (Cert.Spec.biasT b)) Cert.Spec.zeroT) w := by
  funext i
  obtain ⟨p, q, rfl⟩ : ∃ (p : Fin 100000) (q : Fin 64), i = ix2 p q := ⟨i 0, i 1, eq_ix2 i⟩
  refine Eq.trans ?_ (dot_apply _ w p q).symm
  show ∑ k : Fin 64, max (agg (ix2 p k) + shapeCast Cert.KernelIdeal.S1x64 b h (ix2 (0 : Fin 1) k)) Cert.KernelIdeal.Bodies.z * w (ix2 k q) = _
  refine Finset.sum_congr rfl fun k _ => ?_
  exact congrArg (· * w (ix2 k q)) (relu_entry agg b h p k)

end Cert.Bridge

end
-- ==== Proof.Result.lean ====
/-
  The idealized kernel program's result is the two-layer function of its arguments.

  The result buffer is the third region's output array: the clamped, biased second aggregate. The second
  aggregate is one round of message passing on the second region's output array, the product of the clamped, biased
  first aggregate with the second weights; the first aggregate is one round on the first region's output array, the
  product of the features with the first weights. Sources, targets and normalization are the same in both rounds,
  computed once before the first region. Written with the host's own contraction, bias broadcast and zero array in
  place of the kernels' sums, this is the two-layer function, operation for operation.
-/
import proofs.«179067_j90512140796730_2_alg».proof.Proof.Chain
import proofs.«179067_j90512140796730_2_alg».proof.Proof.Bridge

noncomputable section

namespace Cert.KernelIdeal.Result

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- The first region leaves the product of the features with the first weights. -/
theorem W4_main_v34 (c : Dev nD) : W4 m ρ c (Proc.devRef .tc main_v34)
    = Cert.Spec.dotT (m ((c : Thread nD τ).loc main_arg0)) (m ((c : Thread nD τ).loc main_arg3)) := by
  refine (W4_arr m ρ c 2).trans ?_
  refine (Blocks.final0 (V3 m ρ) c).trans ?_
  show Blocks.mm (W3 m ρ c (Proc.devRef .tc main_arg0)) (W3 m ρ c (Proc.devRef .tc main_arg3)) = _
  rw [Chain.W3_main_arg0, Chain.W3_main_arg3]
  exact Cert.Bridge.mm_eq _ _

/-- The first aggregate, as the second region finds it. -/
theorem W5_main_v48 (c : Dev nD) : W5 m ρ c (Proc.devRef .tc main_v48)
    = Cert.Spec.aggT (Cert.Spec.colT (m ((c : Thread nD τ).loc main_arg1))) (Cert.Spec.normT (m ((c : Thread nD τ).loc main_arg1)) (m ((c : Thread nD τ).loc main_arg2)))
        (Cert.Spec.rowT (m ((c : Thread nD τ).loc main_arg1))) (Cert.Spec.dotT (m ((c : Thread nD τ).loc main_arg0)) (m ((c : Thread nD τ).loc main_arg3))) := by
  rw [Chain.W5_main_v48, Chain.W4_main_v6, Chain.W4_main_v33, Chain.W4_main_v3, Chain.W3_main_v6, Chain.W3_main_v33,
    Chain.W3_main_v3, W4_main_v34]

/-- The second region leaves the product of the clamped, biased first aggregate with the second weights. -/
theorem W6_main_v50 (c : Dev nD) : W6 m ρ c (Proc.devRef .tc main_v50)
    = Cert.Spec.dotT (Cert.Spec.layerT (Cert.Spec.colT (m ((c : Thread nD τ).loc main_arg1))) (Cert.Spec.normT (m ((c : Thread nD τ).loc main_arg1)) (m ((c : Thread nD τ).loc main_arg2)))
        (Cert.Spec.rowT (m ((c : Thread nD τ).loc main_arg1))) (Cert.Spec.dotT (m ((c : Thread nD τ).loc main_arg0)) (m ((c : Thread nD τ).loc main_arg3))) (m ((c : Thread nD τ).loc main_arg4)))
        (m ((c : Thread nD τ).loc main_arg5)) := by
  refine (W6_arr m ρ c 3).trans ?_
  refine (Blocks.final1 (V5 m ρ) c).trans ?_
  show Blocks.mmRelu (W5 m ρ c (Proc.devRef .tc main_v48)) (W5 m ρ c (Proc.devRef .tc main_v49)) (W5 m ρ c (Proc.devRef .tc main_arg5)) = _
  rw [W5_main_v48, Chain.W5_main_v49, Chain.W5_main_arg5, Chain.W4_main_arg5, Chain.W3_main_arg5, Chain.W4_main_arg4,
    Chain.W3_main_arg4]
  exact Cert.Bridge.mmRelu_eq _ _ _ _

/-- The second aggregate, as the third region finds it. -/
theorem W7_main_v64 (c : Dev nD) : W7 m ρ c (Proc.devRef .tc main_v64)
    = Cert.Spec.aggT (Cert.Spec.colT (m ((c : Thread nD τ).loc main_arg1))) (Cert.Spec.normT (m ((c : Thread nD τ).loc main_arg1)) (m ((c : Thread nD τ).loc main_arg2)))
        (Cert.Spec.rowT (m ((c : Thread nD τ).loc main_arg1)))
        (Cert.Spec.dotT (Cert.Spec.layerT (Cert.Spec.colT (m ((c : Thread nD τ).loc main_arg1))) (Cert.Spec.normT (m ((c : Thread nD τ).loc main_arg1)) (m ((c : Thread nD τ).loc main_arg2)))
          (Cert.Spec.rowT (m ((c : Thread nD τ).loc main_arg1))) (Cert.Spec.dotT (m ((c : Thread nD τ).loc main_arg0)) (m ((c : Thread nD τ).loc main_arg3))) (m ((c : Thread nD τ).loc main_arg4)))
          (m ((c : Thread nD τ).loc main_arg5))) := by
  rw [Chain.W7_main_v64, Chain.W6_main_v6, Chain.W6_main_v33, Chain.W6_main_v3, Chain.W5_main_v6, Chain.W5_main_v33,
    Chain.W5_main_v3, Chain.W4_main_v6, Chain.W4_main_v33, Chain.W4_main_v3, Chain.W3_main_v6, Chain.W3_main_v33,
    Chain.W3_main_v3, W6_main_v50]

/-- The result buffer after the last segment holds the two-layer function of the launch contents of the arguments. -/
theorem result_eq (c : Dev nD) : W8 m ρ c (Proc.devRef .tc main_v66)
    = Cert.Spec.refT (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) := by
  refine (W8_arr m ρ c 2).trans ?_
  refine (Blocks.final2 (V7 m ρ) c).trans ?_
  show Blocks.biasRelu (W7 m ρ c (Proc.devRef .tc main_v64)) (W7 m ρ c (Proc.devRef .tc main_v65)) = _
  rw [W7_main_v64, Chain.W7_main_v65, Chain.W6_main_arg6, Chain.W5_main_arg6, Chain.W4_main_arg6, Chain.W3_main_arg6]
  exact Cert.Bridge.relu_eq _ _ _

end Cert.KernelIdeal.Result

end
-- ==== Proof.RefSpec.lean ====
/-
  The reference program's result is the two-layer function of its arguments: its operations, composed, are that
  function's definition spelt out.
-/
import proofs.«179067_j90512140796730_2_alg».proof.Proof.Gen.ReferenceIdeal.Run
import proofs.«179067_j90512140796730_2_alg».proof.Proof.Spec

noncomputable section

namespace Cert.RefSpec

open Idealize.ShloMosaic Idealize.ShloMosaic.TcCoe Idealize.SL.Sem Cert.ReferenceIdeal

set_option maxRecDepth 16384 in
/-- The composed term of the reference's ninety-one operations is the two-layer function of the launch contents. -/
theorem res_eq (m : (ℓ : Loc nD τ sig) → Buf (Elt Ideal) ℓ) (c : Dev nD) :
    Cert.ReferenceIdeal.Value.res_main_v69 (F := Ideal) m c
      = Cert.Spec.refT (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) := by
  unfold Cert.ReferenceIdeal.Value.res_main_v69 Cert.Spec.refT Cert.Spec.layerT Cert.Spec.dotT Cert.Spec.zeroT Cert.Spec.biasT
    Cert.Spec.aggT Cert.Spec.normT Cert.Spec.wrapT Cert.Spec.dinvT Cert.Spec.degT Cert.Spec.wT Cert.Spec.rowT Cert.Spec.colT
  rfl

end Cert.RefSpec

end
-- ==== Proof.lean ====
/-
  Two graph-convolution layers on 100000 nodes, 64 features and 1600000 weighted edges: three tiled kernels with
  host gathers and scatter-adds between them, against the same layers written with host operations only.

  At the extended reals a change of float format is the identity, and each kernel's row blocks are restrictions of
  one whole-array function, so the kernel program computes, operation for operation, what the reference computes:
  degrees, inverse square roots and edge normalization on the host in both; features times weights as a sum over
  the 64 inner indices, in the same order, on the matrix unit in one and by the host's contraction in the other;
  gather, scale, scatter-add on the host in both; bias and clamp in the second and third kernels against a broadcast
  add and a maximum on the host. No law of arithmetic is needed beyond that, and the precondition is not used.

  The three frames are the generated ones (the reference's is its generated run with the result dropped); the ideal
  pass rewrote nothing, so there is nothing to preserve; the two runs end at the same two-layer function of arguments
  that agree.
-/
import proofs.«179067_j90512140796730_2_alg».proof.Defs
import proofs.«179067_j90512140796730_2_alg».proof.Proof.Gen.Kernel
import proofs.«179067_j90512140796730_2_alg».proof.Proof.Gen.Kernel.Frame
import proofs.«179067_j90512140796730_2_alg».proof.Proof.Gen.KernelIdeal
import proofs.«179067_j90512140796730_2_alg».proof.Proof.Gen.KernelIdeal.Frame
import proofs.«179067_j90512140796730_2_alg».proof.Proof.Gen.ReferenceIdeal
import proofs.«179067_j90512140796730_2_alg».proof.Proof.Gen.Pre_finite_inputs
import proofs.«179067_j90512140796730_2_alg».proof.Proof.Gen.ReferenceIdeal.Run
import proofs.«179067_j90512140796730_2_alg».proof.Proof.Gen.ReferenceIdeal.Read
import proofs.«179067_j90512140796730_2_alg».proof.Proof.RunValue
import proofs.«179067_j90512140796730_2_alg».proof.Proof.Result
import proofs.«179067_j90512140796730_2_alg».proof.Proof.RefSpec
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with their result buffer at the two-layer function of their arguments' launch
    contents, and those agree. -/
theorem algebraic : Cert.algebraic_KernelIdeal_ReferenceIdeal := by
  intro m ρ m' ρ' _ hagree
  refine ⟨fun c => Cert.KernelIdeal.Gen.W8 m ρ c (Proc.devRef .tc Cert.KernelIdeal.main_v66),
    Cert.KernelIdeal.RunValue.run_result (F := Ideal) m ρ, ?_⟩
  refine (θ_run Cert.ReferenceIdeal.defs _ _).mono (fun _ h c => ⟨(h c).1.trans ?_, (h c).2⟩)
    (Cert.ReferenceIdeal.Value.run (F := Ideal) m' ρ')
  show Cert.ReferenceIdeal.Value.res_main_v69 (F := Ideal) m' c
    = Cert.KernelIdeal.Gen.W8 m ρ c (Proc.devRef .tc Cert.KernelIdeal.main_v66)
  obtain ⟨h0, h1, h2, h3, h4, h5, h6⟩ := hagree c
  rw [Cert.RefSpec.res_eq, Cert.KernelIdeal.Result.result_eq, h0, h1, h2, h3, h4, h5, h6]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
